-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4096x256 .f32) (main_arg1 : FVec F S256x256 .f32) (main_arg2 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4096x256 : Shape := ⟨2, ![4096, 256]⟩
abbrev S256x256 : Shape := ⟨2, ![256, 256]⟩
abbrev S256 : Shape := ⟨1, ![256]⟩
abbrev S1x256 : Shape := ⟨2, ![1, 256]⟩
abbrev S512x256 : Shape := ⟨2, ![512, 256]⟩
abbrev S512x8 : Shape := ⟨2, ![512, 8]⟩
abbrev S8x256 : Shape := ⟨2, ![8, 256]⟩
abbrev S512x8x1 : Shape := ⟨3, ![512, 8, 1]⟩
abbrev S1x8x256 : Shape := ⟨3, ![1, 8, 256]⟩
abbrev S512x8x256 : Shape := ⟨3, ![512, 8, 256]⟩

abbrev nBuf : Space → Nat
  | .hbm => 6
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S1x256, .f32⟩
  | .hbm, ⟨5, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S1x256, .f32⟩
  | .local _ .vmem, ⟨4, _⟩ => ⟨S512x256, .f32⟩
  | .local _ .vmem, ⟨5, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_off1 (c0_i32 : BitVec 32) : Fin 2 → Nat :=
  let c0 : Index := 0#32
  let c8_i32 : BitVec 32 := 8#32
  let v1 : BitVec 32 := Scalar.muli c0_i32 c8_i32
  let v2 : Index := Scalar.indexCast v1
  ![0, v2.toNat]
def k0_off2 (c0_i32 : BitVec 32) : Fin 2 → Nat :=
  let c8_i32 : BitVec 32 := 8#32
  let v1 : BitVec 32 := Scalar.muli c0_i32 c8_i32
  let v4 : Index := Scalar.indexCast v1
  let c0_0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  shapeCasts_S256_S1x256 : S256.ShapeCasts S1x256
  h_S512x8 : 0 < S512x8.numel
  h_S8x256 : 0 < S8x256.numel
  shapeCasts_S8x256_S8x256 : S8x256.ShapeCasts S8x256
  shapeCasts_S512x8_S512x8x1 : S512x8.ShapeCasts S512x8x1
  shapeCasts_S8x256_S1x8x256 : S8x256.ShapeCasts S1x8x256
  broadcasts_S512x8x1_S512x8x256 : S512x8x1.Broadcasts S512x8x256
  broadcasts_S1x8x256_S512x8x256 : S1x8x256.Broadcasts S512x8x256
  reduces_S512x8x256_S512x256 : S512x8x256.Reduces [1] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  hrank0 : 0 < grid0.rank
  k0_off1_inb : ∀ (r : Fin 32), ∀ a, (k0_off1 (BitVec.ofNat 32 r.val)) a + S512x8.size a ≤ S512x256.size a
  k0_off2_inb : ∀ (r : Fin 32), ∀ a, (k0_off2 (BitVec.ofNat 32 r.val)) a + S8x256.size a ≤ S256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)

variable [Facts₀]

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S256 : Shape := ⟨1, ![256]⟩
abbrev S4096x1x256 : Shape := ⟨3, ![4096, 1, 256]⟩
abbrev S1x256x256 : Shape := ⟨3, ![1, 256, 256]⟩
abbrev S4096x256x256 : Shape := ⟨3, ![4096, 256, 256]⟩
abbrev S_ : Shape := ⟨0, ![]⟩
abbrev S1x256 : Shape := ⟨2, ![1, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256, .f32⟩
  | .hbm, ⟨3, _⟩ => ⟨S4096x1x256, .f32⟩
  | .hbm, ⟨4, _⟩ => ⟨S1x256x256, .f32⟩
  | .hbm, ⟨5, _⟩ => ⟨S4096x256x256, .f32⟩
  | .hbm, ⟨6, _⟩ => ⟨S4096x256x256, .f32⟩
  | .hbm, ⟨7, _⟩ => ⟨S4096x256x256, .f32⟩
  | .hbm, ⟨8, _⟩ => ⟨S_, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4096x256_S4096x1x256_0_2 : S4096x256.BroadcastsInDim S4096x1x256 (![0, 2] : Fin 2 → Fin S4096x1x256.rank)
  bcast_S256x256_S1x256x256_1_2 : S256x256.BroadcastsInDim S1x256x256 (![1, 2] : Fin 2 → Fin S1x256x256.rank)
  bcast_S4096x1x256_S4096x256x256_0_1_2 : S4096x1x256.BroadcastsInDim S4096x256x256 (![0, 1, 2] : Fin 3 → Fin S4096x256x256.rank)
  bcast_S1x256x256_S4096x256x256_0_1_2 : S1x256x256.BroadcastsInDim S4096x256x256 (![0, 1, 2] : Fin 3 → Fin S4096x256x256.rank)
  reducesTo_S4096x256x256_S4096x256_d2 : S4096x256x256.ReducesTo [2] S4096x256
  h_S_ : 0 < S_.numel
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)

variable [Facts₀]

class Facts : Prop extends Facts₀ where

variable [Facts]
-- ==== Proof.MaxPlus.lean ====
/-
  The order-theoretic core of a max-plus ("tropical") matrix product, free of any program.

  For a row `g : Fin 256 → α` of a linearly ordered set with a least element, `upTo g n` is the
  maximum of `g` over the columns `i < n`, taken from `⊥`. A maximum over all 256 columns can be
  taken eight columns at a time: the running maximum over the columns before `o`, joined with the
  maximum (again from `⊥`) of the next eight, is the running maximum over the columns before
  `o + 8`; it starts at `⊥` and after all columns it is the maximum of the whole row. Only
  associativity, commutativity and idempotence of `max` are used, through the universal property
  `fold max b f ≤ c ↔ b ≤ c ∧ ∀ x, f x ≤ c`: nothing here needs a finite entry.
-/
import Mathlib.Data.Finset.Fold
import Mathlib.Order.BoundedOrder.Basic
import Mathlib.Data.Fintype.Basic

namespace MaxPlus

variable {α : Type*} [LinearOrder α] [OrderBot α]

/-- The maximum, from `⊥`, of `g` over the columns before `n`. -/
def upTo (g : Fin 256 → α) (n : ℕ) : α :=
  (Finset.univ.filter fun i : Fin 256 => i.val < n).fold max ⊥ g

/-- Its universal property: it lies below `b` exactly when every column before `n` does. -/
theorem upTo_le_iff (g : Fin 256 → α) (n : ℕ) (b : α) :
    upTo g n ≤ b ↔ ∀ i : Fin 256, i.val < n → g i ≤ b := by
  unfold upTo
  rw [Finset.fold_max_le]
  constructor
  · intro h i hi
    exact h.2 i (Finset.mem_filter.2 ⟨Finset.mem_univ i, hi⟩)
  · intro h
    exact ⟨bot_le, fun i hi => h i (Finset.mem_filter.1 hi).2⟩

/-- Before any column the running maximum is the least element. -/
theorem upTo_zero (g : Fin 256 → α) : upTo g 0 = ⊥ :=
  le_antisymm ((upTo_le_iff g 0 ⊥).2 fun _ hi => absurd hi (Nat.not_lt_zero _)) bot_le

/-- One chunk of eight columns: the running maximum before column `o`, joined with the maximum from
    `⊥` of the eight entries `h k = g (o + k)`, is the running maximum before column `o + 8`. -/
theorem upTo_step (g : Fin 256 → α) (o : ℕ) (ho : o + 8 ≤ 256) (h : Fin 8 → α)
    (hh : ∀ k : Fin 8, h k = g ⟨o + k.val, by have := k.isLt; omega⟩) :
    max (upTo g o) (Finset.univ.fold max ⊥ h) = upTo g (o + 8) := by
  refine eq_of_forall_ge_iff fun b => ?_
  rw [max_le_iff, upTo_le_iff, upTo_le_iff, Finset.fold_max_le]
  constructor
  · rintro ⟨h1, -, h2⟩ i hi
    by_cases hlt : i.val < o
    · exact h1 i hlt
    · have hk : i.val - o < 8 := by omega
      have e := h2 ⟨i.val - o, hk⟩ (Finset.mem_univ _)
      rw [hh] at e
      have hi' : (⟨o + (i.val - o), by omega⟩ : Fin 256) = i := Fin.ext (by show o + (i.val - o) = i.val; omega)
      rwa [hi'] at e
  · intro hall
    refine ⟨fun i hi => hall i (by omega), bot_le, fun k _ => ?_⟩
    rw [hh]
    exact hall _ (by show o + k.val < o + 8; have := k.isLt; omega)

/-- After all 256 columns the running maximum is the maximum of the whole row. -/
theorem upTo_all (g : Fin 256 → α) : upTo g 256 = Finset.univ.fold max ⊥ g := by
  unfold upTo
  rw [Finset.filter_true_of_mem fun (i : Fin 256) _ => i.isLt]

end MaxPlus
-- ==== Proof.Chunk.lean ====
/-
  One chunk of the kernel's running maximum, read at an index.

  The kernel walks the 256 input columns eight at a time. For a chunk it loads the columns
  `o … o+7` of its block of `x` (512 × 8) and the rows `o … o+7` of the transposed `a` (8 × 256),
  spreads both over a 512 × 8 × 256 box, adds them there, takes the maximum over the middle axis from
  −∞, and joins that with the accumulator. At row `r` and output column `q` this is
      max (acc r q) (max over k < 8, from ⊥, of x r (o+k) + aT (o+k) q)
  so if the accumulator holds the running maximum of `i ↦ x r i + aT i q` before column `o`, the
  step leaves the running maximum before column `o + 8` (`MaxPlus.upTo_step`).
-/
import proofs.«178071_j13099650252927_2_alg».proof.Proof.Gen.KernelIdeal.Skeleton
import proofs.«178071_j13099650252927_2_alg».proof.Proof.MaxPlus
import Idealize.ShloMosaic.PureOps.Ideal.Laws
import Idealize.ShloMosaic.Lib.ValueIdx
import Idealize.ShloMosaic.Lib.Pipeline.Value
import Idealize.ShloMosaic.Lib.Pipeline.FrameBody

noncomputable section

namespace Cert.KernelIdeal.Tropical

open Cert.KernelIdeal Cert.KernelIdeal.Gen Idealize.ShloMosaic Idealize.ShloMosaic.ValueIdx

/-- The word `0xFF800000` denotes −∞, the least extended real. -/
theorem negInf : Ideal.ofBits .f32 0xFF800000#32 = (⊥ : EReal) := by simp [Ideal.ofBits, Ideal.ieee]

section AnyValues

variable {F : FTy → Type} [FloatOps F]

/-- The maximum over the eight rows of a chunk's 512 × 8 × 256 box, from −∞. -/
def chunkMax (s : FVec F S512x8x256 .f32) : FVec F S512x256 .f32 :=
  multiReduction .maximumf [1] S512x256 s 0xFF800000#32 reduces_S512x8x256_S512x256 (.inl rfl) rfl

/-- One step of the running maximum: the accumulator joined with the chunk's maximum of `x ⊕ aT`. -/
def step (acc : FVec F S512x256 .f32) (xc : Vec F S512x8 .f32) (ac : Vec F S8x256 .f32) : FVec F S512x256 .f32 :=
  maximumf acc (chunkMax (k0_pay5 xc ac))

end AnyValues

/-- The chunk's box at `(r, k, q)` is the chunk of `x` at `(r, k)` plus the chunk of `aT` at `(k, q)`:
    the first spread along the last axis, the second along the first. -/
theorem chunkSum_apply (xc : Vec Ideal S512x8 .f32) (ac : Vec Ideal S8x256 .f32) (r : Fin 512) (k : Fin 8) (q : Fin 256) :
    k0_pay5 (F := Ideal) xc ac (ix3 r k q) = xc (ix2 r k) + ac (ix2 k q) := by
  unfold k0_pay5
  refine (addf_apply _ _ _).trans (congrArg₂ (· + ·) ?_ ?_)
  · refine (broadcastTo_apply _ broadcasts_S512x8x1_S512x8x256 (ix3 r k q) (ix3 r k (0 : Fin 1)) ?_).trans ?_
    · intro a
      match a with
      | ⟨0, _⟩ => show r.val = if (512 : ℕ) = 1 then 0 else r.val; rw [if_neg (by decide)]
      | ⟨1, _⟩ => show k.val = if (8 : ℕ) = 1 then 0 else k.val; rw [if_neg (by decide)]
      | ⟨2, _⟩ => show 0 = if (1 : ℕ) = 1 then 0 else q.val; rw [if_pos rfl]
    · refine shapeCast_apply _ shapeCasts_S512x8_S512x8x1 (ix3 r k (0 : Fin 1)) (ix2 r k) ?_
      rw [Shape.rowMajor_val_two, Shape.rowMajor_val_three]
      show r.val * 8 + k.val = (r.val * 8 + k.val) * 1 + 0
      omega
  · refine (broadcastTo_apply _ broadcasts_S1x8x256_S512x8x256 (ix3 r k q) (ix3 (0 : Fin 1) k q) ?_).trans ?_
    · intro a
      match a with
      | ⟨0, _⟩ => show 0 = if (1 : ℕ) = 1 then 0 else r.val; rw [if_pos rfl]
      | ⟨1, _⟩ => show k.val = if (8 : ℕ) = 1 then 0 else k.val; rw [if_neg (by decide)]
      | ⟨2, _⟩ => show q.val = if (256 : ℕ) = 1 then 0 else q.val; rw [if_neg (by decide)]
    · refine (shapeCast_apply _ shapeCasts_S8x256_S1x8x256 (ix3 (0 : Fin 1) k q) (ix2 k q) ?_).trans ?_
      · rw [Shape.rowMajor_val_two, Shape.rowMajor_val_three]
        show k.val * 256 + q.val = (0 * 8 + k.val) * 256 + q.val
        omega
      · exact congrFun (shapeCast_self ac shapeCasts_S8x256_S8x256) (ix2 k q)

/-- The reduced index `(r, q)` with coordinate `k` put back on the middle axis is `(r, k, q)`. -/
theorem lift_rq (r : Fin 512) (q : Fin 256) (k : Fin (S512x8x256.size 1)) :
    reduces_S512x8x256_S512x256.lift (ix2 r q) k = ix3 r (⟨k.val, k.isLt⟩ : Fin 8) q := by
  funext c; apply Fin.ext
  fin_cases c <;> rfl

/-- The chunk's maximum at `(r, q)`: the maximum over its eight columns, from `⊥`. -/
theorem chunkMax_apply (xc : Vec Ideal S512x8 .f32) (ac : Vec Ideal S8x256 .f32) (r : Fin 512) (q : Fin 256) :
    chunkMax (F := Ideal) (k0_pay5 xc ac) (ix2 r q)
      = (Finset.univ : Finset (Fin 8)).fold max (⊥ : EReal) (fun k => xc (ix2 r k) + ac (ix2 k q)) := by
  unfold chunkMax
  refine (Ideal.multiReduction_maximumf_single _ _ reduces_S512x8x256_S512x256 _ _ (ix2 r q)).trans ?_
  have hf : (k0_pay5 (F := Ideal) xc ac ∘ reduces_S512x8x256_S512x256.lift (ix2 r q))
      = fun k : Fin 8 => xc (ix2 r k) + ac (ix2 k q) :=
    funext fun k => (congrArg (k0_pay5 (F := Ideal) xc ac) (lift_rq r q k)).trans (chunkSum_apply xc ac r _ q)
  rw [hf]
  exact congrArg (fun b => (Finset.univ : Finset (Fin 8)).fold max b _) negInf

/-- One step at `(r, q)`. -/
theorem step_apply (acc : FVec Ideal S512x256 .f32) (xc : Vec Ideal S512x8 .f32) (ac : Vec Ideal S8x256 .f32)
    (r : Fin 512) (q : Fin 256) :
    step (F := Ideal) acc xc ac (ix2 r q)
      = max (acc (ix2 r q)) ((Finset.univ : Finset (Fin 8)).fold max (⊥ : EReal) (fun k => xc (ix2 r k) + ac (ix2 k q))) := by
  unfold step
  exact (maximumf_apply _ _ _).trans (congrArg (max _) (chunkMax_apply xc ac r q))

/-! ## The chunk's two loads -/

/-- Eight columns of a 512 × 256 block from column `o`: at `(r, k)` the block at `(r, o + k)`. -/
theorem ld_cols {Val : EltTy → Type} {e : EltTy} (X : S512x256.Idx → Val e) (o : ℕ) (inb : ∀ a, (![0, o] : Fin 2 → ℕ) a + S512x8.size a ≤ S512x256.size a)
    (r : Fin 512) (k : Fin 8) (h : o + k.val < 256) :
    View.ld X (Rect.unit ![0, o] S512x8.size inb) (ix2 r k) = X (ix2 r ⟨o + k.val, h⟩) := by
  refine congrArg X (funext fun a => Fin.ext ?_)
  match a with
  | ⟨0, _⟩ => show 0 + 1 * r.val = r.val; omega
  | ⟨1, _⟩ => show o + 1 * k.val = o + k.val; omega

/-- Eight rows of a 256 × 256 array from row `o`: at `(k, q)` the array at `(o + k, q)`. -/
theorem ld_rows {Val : EltTy → Type} {e : EltTy} (X : S256x256.Idx → Val e) (o : ℕ) (inb : ∀ a, (![o, 0] : Fin 2 → ℕ) a + S8x256.size a ≤ S256x256.size a)
    (k : Fin 8) (q : Fin 256) (h : o + k.val < 256) :
    View.ld X (Rect.unit ![o, 0] S8x256.size inb) (ix2 k q) = X (ix2 ⟨o + k.val, h⟩ q) := by
  refine congrArg X (funext fun a => Fin.ext ?_)
  match a with
  | ⟨0, _⟩ => show o + 1 * k.val = o + k.val; omega
  | ⟨1, _⟩ => show 0 + 1 * q.val = q.val; omega

/-! ## A step keeps the running maximum -/

/-- Row `r` of the block of `x` plus column `q` of the transposed `a`, entry by entry: the row whose
    maximum the kernel takes. -/
def row (x0 : Vec Ideal S512x256 .f32) (x1 : Vec Ideal S256x256 .f32) (r : Fin 512) (q : Fin 256) : Fin 256 → EReal :=
  fun i => x0 (ix2 r i) + x1 (ix2 i q)

/-- If the accumulator holds, at `(r, q)`, the running maximum of that row before column `o`, then after
    the step on the chunk loaded from column `o` it holds the running maximum before column `o + 8`. -/
theorem step_ld (x0 : Vec Ideal S512x256 .f32) (x1 : Vec Ideal S256x256 .f32) (r : Fin 512) (q : Fin 256) (o : ℕ)
    (ho : o + 8 ≤ 256)
    (inb1 : ∀ a, (![0, o] : Fin 2 → ℕ) a + S512x8.size a ≤ S512x256.size a)
    (inb2 : ∀ a, (![o, 0] : Fin 2 → ℕ) a + S8x256.size a ≤ S256x256.size a)
    (acc : FVec Ideal S512x256 .f32) (hacc : acc (ix2 r q) = MaxPlus.upTo (row x0 x1 r q) o) :
    step (F := Ideal) acc (View.ld x0 (Rect.unit ![0, o] S512x8.size inb1)) (View.ld x1 (Rect.unit ![o, 0] S8x256.size inb2)) (ix2 r q)
      = MaxPlus.upTo (row x0 x1 r q) (o + 8) := by
  rw [step_apply, hacc]
  refine MaxPlus.upTo_step (row x0 x1 r q) o ho _ fun k => ?_
  have hk : o + k.val < 256 := by have := k.isLt; omega
  show View.ld x0 (Rect.unit ![0, o] S512x8.size inb1) (ix2 r k) + View.ld x1 (Rect.unit ![o, 0] S8x256.size inb2) (ix2 k q)
    = x0 (ix2 r ⟨o + k.val, hk⟩) + x1 (ix2 ⟨o + k.val, hk⟩ q)
  rw [ld_cols x0 o inb1 r k hk, ld_rows x1 o inb2 k q hk]

end Cert.KernelIdeal.Tropical

end
-- ==== Proof.Body.lean ====
/-
  What the kernel body leaves in its output block, read at an index.

  The body's stored value is a nest of thirteen pure terms over 64 chunk loads and the bias row. Each
  term is, by unfolding alone, a few steps of the running maximum (`Tropical.step`), so the whole
  nest is 32 steps from the splat of −∞ — chunks of columns 0–7, 8–15, …, 248–255 of the block of `x`
  against the same rows of the transposed `a` — followed by adding the bias row to every row. At row
  `r` and column `q` the 32 steps carry the running maximum of `i ↦ x r i + aT i q` from `⊥` through
  all 256 columns (`Tropical.step_ld`, once per chunk), so the block holds
      (max over i < 256 of x r i + aT i q) + bias q.
-/
import proofs.«178071_j13099650252927_2_alg».proof.Proof.Gen.KernelIdeal.Frame
import proofs.«178071_j13099650252927_2_alg».proof.Proof.Chunk
import Idealize.ShloMosaic.Lib.ValueLayout

set_option maxRecDepth 16384

noncomputable section

namespace Cert.KernelIdeal.Tropical

open Cert.KernelIdeal Cert.KernelIdeal.Gen Idealize.ShloMosaic Idealize.ShloMosaic.TcCoe Idealize.ShloMosaic.Tactic
open Idealize.ShloMosaic.ValueIdx Idealize.SL.Sem

/-! ## The body's pure terms are steps of the running maximum -/

section AnyValues

variable {F : FTy → Type} [FloatOps F]

/-- The first three chunks, from the splat of −∞. -/
theorem pay2_eq (a0 : Vec F S512x8 .f32) (b0 : Vec F S8x256 .f32) (a1 : Vec F S512x8 .f32) (b1 : Vec F S8x256 .f32) (a2 : Vec F S512x8 .f32) (b2 : Vec F S8x256 .f32) :
    k0_pay2 a0 b0 a1 b1 a2 b2
      = step (step (step (broadcast S512x256 (Scalar.ofBits .f32 0xFF800000#32 : F .f32)) a0 b0) a1 b1) a2 b2 := rfl

/-- Three chunks joined onto an accumulator. -/
theorem pay3_eq (v : FVec F S512x256 .f32) (a0 : Vec F S512x8 .f32) (b0 : Vec F S8x256 .f32) (a1 : Vec F S512x8 .f32) (b1 : Vec F S8x256 .f32) (a2 : Vec F S512x8 .f32) (b2 : Vec F S8x256 .f32) :
    k0_pay3 v a0 b0 a1 b1 a2 b2 = step (step (step v a0 b0) a1 b1) a2 b2 := rfl

/-- Three chunks joined onto an accumulator. -/
theorem pay4_eq (v : FVec F S512x256 .f32) (a0 : Vec F S512x8 .f32) (b0 : Vec F S8x256 .f32) (a1 : Vec F S512x8 .f32) (b1 : Vec F S8x256 .f32) (a2 : Vec F S512x8 .f32) (b2 : Vec F S8x256 .f32) :
    k0_pay4 v a0 b0 a1 b1 a2 b2 = step (step (step v a0 b0) a1 b1) a2 b2 := rfl

/-- Three chunks joined onto an accumulator. -/
theorem pay7_eq (v : FVec F S512x256 .f32) (a0 : Vec F S512x8 .f32) (b0 : Vec F S8x256 .f32) (a1 : Vec F S512x8 .f32) (b1 : Vec F S8x256 .f32) (a2 : Vec F S512x8 .f32) (b2 : Vec F S8x256 .f32) :
    k0_pay7 v a0 b0 a1 b1 a2 b2 = step (step (step v a0 b0) a1 b1) a2 b2 := rfl

/-- Three chunks joined onto an accumulator. -/
theorem pay8_eq (v : FVec F S512x256 .f32) (a0 : Vec F S512x8 .f32) (b0 : Vec F S8x256 .f32) (a1 : Vec F S512x8 .f32) (b1 : Vec F S8x256 .f32) (a2 : Vec F S512x8 .f32) (b2 : Vec F S8x256 .f32) :
    k0_pay8 v a0 b0 a1 b1 a2 b2 = step (step (step v a0 b0) a1 b1) a2 b2 := rfl

/-- Three chunks joined onto an accumulator. -/
theorem pay11_eq (v : FVec F S512x256 .f32) (a0 : Vec F S512x8 .f32) (b0 : Vec F S8x256 .f32) (a1 : Vec F S512x8 .f32) (b1 : Vec F S8x256 .f32) (a2 : Vec F S512x8 .f32) (b2 : Vec F S8x256 .f32) :
    k0_pay11 v a0 b0 a1 b1 a2 b2 = step (step (step v a0 b0) a1 b1) a2 b2 := rfl

/-- Three chunks joined onto an accumulator. -/
theorem pay12_eq (v : FVec F S512x256 .f32) (a0 : Vec F S512x8 .f32) (b0 : Vec F S8x256 .f32) (a1 : Vec F S512x8 .f32) (b1 : Vec F S8x256 .f32) (a2 : Vec F S512x8 .f32) (b2 : Vec F S8x256 .f32) :
    k0_pay12 v a0 b0 a1 b1 a2 b2 = step (step (step v a0 b0) a1 b1) a2 b2 := rfl

/-- A chunk whose box was already formed, then three more, joined onto an accumulator. -/
theorem pay6_eq (v : FVec F S512x256 .f32) (s : FVec F S512x8x256 .f32) (a0 : Vec F S512x8 .f32) (b0 : Vec F S8x256 .f32) (a1 : Vec F S512x8 .f32) (b1 : Vec F S8x256 .f32) (a2 : Vec F S512x8 .f32) (b2 : Vec F S8x256 .f32) :
    k0_pay6 v s a0 b0 a1 b1 a2 b2 = step (step (step (maximumf v (chunkMax s)) a0 b0) a1 b1) a2 b2 := rfl

/-- A chunk whose box was already formed, then three more, joined onto an accumulator. -/
theorem pay10_eq (v : FVec F S512x256 .f32) (s : FVec F S512x8x256 .f32) (a0 : Vec F S512x8 .f32) (b0 : Vec F S8x256 .f32) (a1 : Vec F S512x8 .f32) (b1 : Vec F S8x256 .f32) (a2 : Vec F S512x8 .f32) (b2 : Vec F S8x256 .f32) :
    k0_pay10 v s a0 b0 a1 b1 a2 b2 = step (step (step (maximumf v (chunkMax s)) a0 b0) a1 b1) a2 b2 := rfl

/-- The last three chunks (the first with its box already formed), then the bias row added to every row. -/
theorem pay1_eq (v : FVec F S512x256 .f32) (s : FVec F S512x8x256 .f32) (a0 : Vec F S512x8 .f32) (b0 : Vec F S8x256 .f32) (a1 : Vec F S512x8 .f32) (b1 : Vec F S8x256 .f32) (bias : Vec F S1x256 .f32) :
    k0_pay1 v s a0 b0 a1 b1 bias
      = addf (step (step (maximumf v (chunkMax s)) a0 b0) a1 b1)
          (broadcastTo S512x256 (shapeCast S1x256 bias shapeCasts_S1x256_S1x256) broadcasts_S1x256_S512x256) := rfl

/-- The three boxes formed ahead of their maximum are the same term. -/
theorem pay9_eq (a : Vec F S512x8 .f32) (b : Vec F S8x256 .f32) : k0_pay9 a b = k0_pay5 a b := rfl
theorem pay13_eq (a : Vec F S512x8 .f32) (b : Vec F S8x256 .f32) : k0_pay13 a b = k0_pay5 a b := rfl

/-- Joining an accumulator with the maximum of a chunk's box is a step. -/
theorem step_eq (v : FVec F S512x256 .f32) (a : Vec F S512x8 .f32) (b : Vec F S8x256 .f32) :
    maximumf v (chunkMax (k0_pay5 a b)) = step v a b := rfl

end AnyValues

/-! ## The output block at an index -/

/-- The bias row spread over the 512 rows reads, at `(r, q)`, the bias at `q`. -/
theorem bias_apply (x2 : Vec Ideal S1x256 .f32) (inb : ∀ a, (![0, 0] : Fin 2 → ℕ) a + S1x256.size a ≤ S1x256.size a)
    (r : Fin 512) (q : Fin 256) :
    broadcastTo S512x256 (shapeCast S1x256 (View.ld x2 (Rect.unit ![0, 0] S1x256.size inb)) shapeCasts_S1x256_S1x256)
        broadcasts_S1x256_S512x256 (ix2 r q) = x2 (ix2 (0 : Fin 1) q) := by
  refine (broadcastTo_1b_ab_apply _ broadcasts_S1x256_S512x256 r q).trans ?_
  refine (congrFun (shapeCast_self (s := S1x256) _ shapeCasts_S1x256_S1x256) (ix2 (0 : Fin 1) q)).trans ?_
  exact congrFun (View.ld_unit_zero (S := S1x256) (by funext a; fin_cases a <;> rfl) inb x2) (ix2 (0 : Fin 1) q)

/-- WHAT THE BODY LEAVES in its output block, from the block of `x` (`x0`), the transposed `a` (`x1`) and the
    bias row (`x2`): at `(r, q)`, the maximum over all 256 columns `i` of `x0 r i + x1 i q`, plus the bias at `q`. -/
theorem out_apply (c : Dev nD) (i : grid0.Coords) (arg1 : Memref sig .tc .vmem S512x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S512x256 .f32) (harg4 : arg4.IsWhole)
    (x0 : Vec Ideal S512x256 .f32) (x1 : Vec Ideal S256x256 .f32) (x2 : Vec Ideal S1x256 .f32) (r : Fin 512) (q : Fin 256) :
    out0_A_3 (F := Ideal) c i arg1 harg1 arg2 harg2 arg3 harg3 arg4 harg4 x0 x1 x2 (ix2 r q)
      = (Finset.univ : Finset (Fin 256)).fold max (⊥ : EReal) (row x0 x1 r q) + x2 (ix2 (0 : Fin 1) q) := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero (by funext a; fin_cases a <;> rfl)]
  simp only [View.readAt_eq_ld, harg1.read_unread, harg2.read_unread, harg3.read_unread]
  simp only [pay1_eq, pay2_eq, pay3_eq, pay4_eq, pay6_eq, pay7_eq, pay8_eq, pay10_eq, pay11_eq, pay12_eq, pay9_eq, pay13_eq, step_eq]
  refine (addf_apply _ _ _).trans (congrArg₂ (· + ·) ?_ (bias_apply x2 _ r q))
  rw [← MaxPlus.upTo_all]
  refine step_ld x0 x1 r q 248 (by norm_num) _ _ _ ?_
  refine step_ld x0 x1 r q 240 (by norm_num) _ _ _ ?_
  refine step_ld x0 x1 r q 232 (by norm_num) _ _ _ ?_
  refine step_ld x0 x1 r q 224 (by norm_num) _ _ _ ?_
  refine step_ld x0 x1 r q 216 (by norm_num) _ _ _ ?_
  refine step_ld x0 x1 r q 208 (by norm_num) _ _ _ ?_
  refine step_ld x0 x1 r q 200 (by norm_num) _ _ _ ?_
  refine step_ld x0 x1 r q 192 (by norm_num) _ _ _ ?_
  refine step_ld x0 x1 r q 184 (by norm_num) _ _ _ ?_
  refine step_ld x0 x1 r q 176 (by norm_num) _ _ _ ?_
  refine step_ld x0 x1 r q 168 (by norm_num) _ _ _ ?_
  refine step_ld x0 x1 r q 160 (by norm_num) _ _ _ ?_
  refine step_ld x0 x1 r q 152 (by norm_num) _ _ _ ?_
  refine step_ld x0 x1 r q 144 (by norm_num) _ _ _ ?_
  refine step_ld x0 x1 r q 136 (by norm_num) _ _ _ ?_
  refine step_ld x0 x1 r q 128 (by norm_num) _ _ _ ?_
  refine step_ld x0 x1 r q 120 (by norm_num) _ _ _ ?_
  refine step_ld x0 x1 r q 112 (by norm_num) _ _ _ ?_
  refine step_ld x0 x1 r q 104 (by norm_num) _ _ _ ?_
  refine step_ld x0 x1 r q 96 (by norm_num) _ _ _ ?_
  refine step_ld x0 x1 r q 88 (by norm_num) _ _ _ ?_
  refine step_ld x0 x1 r q 80 (by norm_num) _ _ _ ?_
  refine step_ld x0 x1 r q 72 (by norm_num) _ _ _ ?_
  refine step_ld x0 x1 r q 64 (by norm_num) _ _ _ ?_
  refine step_ld x0 x1 r q 56 (by norm_num) _ _ _ ?_
  refine step_ld x0 x1 r q 48 (by norm_num) _ _ _ ?_
  refine step_ld x0 x1 r q 40 (by norm_num) _ _ _ ?_
  refine step_ld x0 x1 r q 32 (by norm_num) _ _ _ ?_
  refine step_ld x0 x1 r q 24 (by norm_num) _ _ _ ?_
  refine step_ld x0 x1 r q 16 (by norm_num) _ _ _ ?_
  refine step_ld x0 x1 r q 8 (by norm_num) _ _ _ ?_
  refine step_ld x0 x1 r q 0 (by norm_num) _ _ _ ?_
  rw [MaxPlus.upTo_zero]
  exact negInf

end Cert.KernelIdeal.Tropical

end
-- ==== Proof.Spec.lean ====
/-
  The specification both programs meet: the max-plus ("tropical") matrix product with a bias,
      y n o = (max over i < 256 of x n i + a o i) + bias o
  over the extended reals, the maximum taken from `⊥` (−∞, the identity of `max`). It is stated
  once, as one function of the three argument arrays, index by index.
-/
import Idealize.ShloMosaic.Lib.ValueIdx

noncomputable section

namespace Cert.Spec

open Idealize.ShloMosaic Idealize.ShloMosaic.ValueIdx

/-- `y n o = (max over i of x n i + a o i) + bias o`. -/
def maxPlus (x : (⟨2, ![4096, 256]⟩ : Shape).Idx → EReal) (a : (⟨2, ![256, 256]⟩ : Shape).Idx → EReal)
    (b : (⟨1, ![256]⟩ : Shape).Idx → EReal) : (⟨2, ![4096, 256]⟩ : Shape).Idx → EReal :=
  fun j => (Finset.univ : Finset (Fin 256)).fold max (⊥ : EReal) (fun i => x (ix2 (j 0) i) + a (ix2 (j 1) i)) + b (ix1 (j 1))

theorem maxPlus_apply (x : (⟨2, ![4096, 256]⟩ : Shape).Idx → EReal) (a : (⟨2, ![256, 256]⟩ : Shape).Idx → EReal)
    (b : (⟨1, ![256]⟩ : Shape).Idx → EReal) (n : Fin 4096) (o : Fin 256) :
    maxPlus x a b (ix2 n o)
      = (Finset.univ : Finset (Fin 256)).fold max (⊥ : EReal) (fun i => x (ix2 n i) + a (ix2 o i)) + b (ix1 o) := rfl

end Cert.Spec

end
-- ==== Proof.KernelValue.lean ====
/-
  From blocks to the array: the kernel's result is the specification.

  The grid has eight points. Point `t` stages rows `512 t … 512 t + 511` of `x`, the whole transposed `a`
  (written by the host before the call) and the whole bias row (the bias reshaped to [1, 256]), and writes
  back rows `512 t … 512 t + 511` of the result. At a block's `(r, q)` the body leaves
  `(max over i of xblock r i + aT i q) + biasrow 0 q` (`Tropical.out_apply`); the block's row `r` is row
  `512 t + r` of `x`, `aT i q` is `a q i`, and `biasrow 0 q` is `bias q`: the block is the restriction of
  `Spec.maxPlus x a bias`. The eight blocks tile the 4096 rows (row `n` is in block `n / 512`), so the whole
  array ends at the specification.
-/
import proofs.«178071_j13099650252927_2_alg».proof.Proof.Gen.KernelIdeal.Value
import proofs.«178071_j13099650252927_2_alg».proof.Proof.Body
import proofs.«178071_j13099650252927_2_alg».proof.Proof.Spec
import Idealize.ShloMosaic.Lib.StableHlo.Run
import Idealize.ShloMosaic.Lib.ValueLayout

set_option maxRecDepth 16384

noncomputable section

namespace Cert.KernelIdeal.Tropical

open Cert.KernelIdeal Cert.KernelIdeal.Gen Idealize.ShloMosaic Idealize.ShloMosaic.TcCoe Idealize.ShloMosaic.Tactic
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the host wrote before the call -/

/-- The second window's array is `a` transposed. -/
theorem V_aT (c : Dev nD) :
    (V m c main_v0 : S256x256.Idx → EReal)
      = transpose S256x256 [1, 0] (m ((c : Thread nD τ).loc main_arg1)) transposes_S256x256_S256x256_1_0 := by
  dsimp only [Gen.V, Gen.hostOps0]
  after_results

/-- The third window's array is the bias as one row. -/
theorem V_biasRow (c : Dev nD) :
    (V m c main_v1 : S1x256.Idx → EReal)
      = shapeCast S1x256 (m ((c : Thread nD τ).loc main_arg2)) shapeCasts_S256_S1x256 := by
  dsimp only [Gen.V, Gen.hostOps0]
  after_results
  rfl

/-- The transposed `a` at `(i, q)` is `a` at `(q, i)`. -/
theorem aT_apply (c : Dev nD) (i q : Fin 256) :
    V m c main_v0 (ix2 i q) = m ((c : Thread nD τ).loc main_arg1) (ix2 q i) := by
  rw [V_aT]
  exact transpose_ix2_apply _ transposes_S256x256_S256x256_1_0 i q

/-- The bias row at `(0, q)` is the bias at `q`. -/
theorem biasRow_apply (c : Dev nD) (q : Fin 256) :
    V m c main_v1 (ix2 (0 : Fin 1) q) = m ((c : Thread nD τ).loc main_arg2) (ix1 q) := by
  rw [V_biasRow]
  exact shapeCast_a_1a_apply _ shapeCasts_S256_S1x256 (0 : Fin 1) q

/-! ## A block of the result -/

/-- The body's block value, with its three inputs identified, is a row block of the specification. -/
theorem block_value (X : S4096x256.Idx → EReal) (A : S256x256.Idx → EReal) (B : S256.Idx → EReal)
    (x0 : Vec Ideal S512x256 .f32) (x1 : Vec Ideal S256x256 .f32) (x2 : Vec Ideal S1x256 .f32)
    (n : Fin 4096) (r : Fin 512) (q : Fin 256)
    (h0 : ∀ i : Fin 256, x0 (ix2 r i) = X (ix2 n i)) (h1 : ∀ i : Fin 256, x1 (ix2 i q) = A (ix2 q i))
    (h2 : x2 (ix2 (0 : Fin 1) q) = B (ix1 q)) :
    (Finset.univ : Finset (Fin 256)).fold max (⊥ : EReal) (row x0 x1 r q) + x2 (ix2 (0 : Fin 1) q)
      = Cert.Spec.maxPlus X A B (ix2 n q) := by
  rw [Cert.Spec.maxPlus_apply, h2]
  have hrow : row x0 x1 r q = fun i => X (ix2 n i) + A (ix2 q i) := funext fun i => by
    show x0 (ix2 r i) + x1 (ix2 i q) = _
    rw [h0, h1]
  rw [hrow]

/-- The printed index maps over the grid: the blocks of `x` and of the result move down with the point, the
    other two windows stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block of the result is some point's. -/
theorem idx_onto : ∀ b : Fin 8, ∃ t : Fin cfg0.N, win0_3.index t = ![b.val, 0] :=
  (by decide +kernel : ∀ b : Fin 8, ∃ t : Fin grid0.N, win0_3.index t = ![b.val, 0])

/-- WHAT POINT `t` WRITES BACK is block `t` of the specification of the three argument arrays. -/
theorem flushed_eq (c : Dev nD) (t : Fin cfg0.N) :
    (dats m 0 c).flushed 3 t = ((cfg0.win 3).blk t).view.read (Elt Ideal)
      (Cert.Spec.maxPlus (m ((c : Thread nD τ).loc main_arg0)) (m ((c : Thread nD τ).loc main_arg1)) (m ((c : Thread nD τ).loc main_arg2))) := by
  rw [Cert.KernelIdeal.Value.flushed3_A]
  obtain ⟨e00, e01, e10, e11, e20, e21, e30, e31⟩ := idx_facts t
  have ht : t.val < 8 := t.isLt
  funext y
  have hy0 : (y 0).val < 512 := (y 0).isLt
  have hy1 : (y 1).val < 256 := (y 1).isLt
  show out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t) y
    = Cert.Spec.maxPlus (m ((c : Thread nD τ).loc main_arg0)) (m ((c : Thread nD τ).loc main_arg1)) (m ((c : Thread nD τ).loc main_arg2))
        (((cfg0.win 3).blk t).view.emb y)
  have hemb : ((cfg0.win 3).blk t).view.emb y = ix2 (⟨t.val * 512 + (y 0).val, by omega⟩ : Fin 4096) (y 1) := by
    funext a; apply Fin.ext
    match a with
    | ⟨0, _⟩ => show win0_3.index t (0 : Fin 2) * 512 + 1 * (y 0).val = t.val * 512 + (y 0).val; omega
    | ⟨1, _⟩ => show win0_3.index t (1 : Fin 2) * 256 + 1 * (y 1).val = (y 1).val; omega
  rw [hemb]
  have hout := out_apply c (grid0.coords t) (ms0_0 t) (hs0_0 t) (ms0_1 t) (hs0_1 t) (ms0_2 t) (hs0_2 t) (ms0_3 t) (hs0_3 t)
    (iblk m c 0 t) (iblk m c 1 t) (iblk m c 2 t) (y 0) (y 1)
  refine ((congrArg (out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t)) (eq_ix2 (n0 := 512) (n1 := 256) y)).trans hout).trans (block_value _ _ _ _ _ _ _ (y 0) (y 1) (fun i => ?_) (fun i => ?_) ?_)
  · -- row `r` of the block of `x` is row `512 t + r` of `x`
    show V m c main_arg0 (((cfg0.win 0).blk t).view.emb (ix2 (y 0) i)) = _
    rw [V_main_arg0]
    refine congrArg _ (funext fun a => Fin.ext ?_)
    match a with
    | ⟨0, _⟩ => show win0_0.index t (0 : Fin 2) * 512 + 1 * (y 0).val = t.val * 512 + (y 0).val; omega
    | ⟨1, _⟩ => show win0_0.index t (1 : Fin 2) * 256 + 1 * i.val = i.val; omega
  · -- the second window's block is the whole transposed `a`
    show V m c main_v0 (((cfg0.win 1).blk t).view.emb (ix2 i (y 1))) = _
    have he : ((cfg0.win 1).blk t).view.emb (ix2 i (y 1)) = ix2 i (y 1) := by
      funext a; apply Fin.ext
      match a with
      | ⟨0, _⟩ => show win0_1.index t (0 : Fin 2) * 256 + 1 * i.val = i.val; omega
      | ⟨1, _⟩ => show win0_1.index t (1 : Fin 2) * 256 + 1 * (y 1).val = (y 1).val; omega
    rw [he]
    exact aT_apply m c i (y 1)
  · -- the third window's block is the whole bias row
    show V m c main_v1 (((cfg0.win 2).blk t).view.emb (ix2 (0 : Fin 1) (y 1))) = _
    have he : ((cfg0.win 2).blk t).view.emb (ix2 (0 : Fin 1) (y 1)) = ix2 (0 : Fin 1) (y 1) := by
      funext a; apply Fin.ext
      match a with
      | ⟨0, _⟩ => show win0_2.index t (0 : Fin 2) * 1 + 1 * 0 = 0; omega
      | ⟨1, _⟩ => show win0_2.index t (1 : Fin 2) * 256 + 1 * (y 1).val = (y 1).val; omega
    rw [he]
    exact biasRow_apply m c (y 1)

/-! ## The blocks tile the array -/

/-- An index of the result is in point `t`'s block iff each coordinate is in the block's range on its axis. -/
theorem mem_blk (t : Fin cfg0.N) (i : S4096x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v2).slice (win0_3.rect t)).set ↔ _
  rw [View.set_slice_whole, Rect.mem_set_unit]
  exact Iff.rfl

/-- Row `n` of the result lies in the block of point `n / 512`. -/
theorem cover (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- THE ARRAY after the run is the specification of the three argument arrays. -/
theorem final (c : Dev nD) :
    (dats m 0 c).arrAt 3 cfg0.N
      = Cert.Spec.maxPlus (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The run, read -/

/-- Every weakly fair execution of the kernel's program ends with the result array at the specification of the
    argument arrays, the arguments unchanged. -/
theorem run : θ_run defs (onTc (τ := τ) (main (F := Ideal))) ⟨m, fun _ => 0, ρ⟩ fun r => ∀ c : Dev nD,
      r.2.mem ((c : Thread nD τ).loc main_v2)
        = Cert.Spec.maxPlus (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Tropical

end
-- ==== Proof.RefValue.lean ====
/-
  The reference computes the specification.

  The reference spreads `x` to [4096, 1, 256] and `a` to [1, 256, 256], spreads both over
  [4096, 256, 256], adds them there — entry `(n, o, i)` is `x n i + a o i` —, takes the maximum
  over the last axis from −∞, and adds the bias spread over the rows. A one-axis maximum with a
  commutative, associative body is the fold of `max` over that axis's coordinates from the initial
  value; the initial value's word denotes `⊥`. So at `(n, o)` the result is
  `(max over i of x n i + a o i) + bias o`: `Spec.maxPlus`.
-/
import proofs.«178071_j13099650252927_2_alg».proof.Proof.Gen.ReferenceIdeal.Read
import proofs.«178071_j13099650252927_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The word `0xFF800000` denotes −∞, the least extended real. -/
theorem negInf : Ideal.ofBits .f32 0xFF800000#32 = (⊥ : EReal) := by simp [Ideal.ofBits, Ideal.ieee]

/-- The shapes of the reduction over the last axis, in the form that names the inserted coordinate. -/
theorem reducesLast : S4096x256x256.Reduces [2] S4096x256 := by decide

/-- The reduced index `(n, o)` with coordinate `i` put back on the last axis is `(n, o, i)`. -/
theorem lift_no (n : Fin 4096) (o : Fin 256) (i : Fin (S4096x256x256.size 2)) :
    reducesLast.lift (ix2 n o) i = ix3 n o (⟨i.val, i.isLt⟩ : Fin 256) := by
  funext c; apply Fin.ext
  fin_cases c <;> rfl

/-- The sum the reference reduces, at `(n, o, i)`: `x n i + a o i`. -/
theorem summand_apply (x0 : (⟨S4096x256, .f32⟩ : BufTy).Contents (Elt Ideal)) (x1 : (⟨S256x256, .f32⟩ : BufTy).Contents (Elt Ideal))
    (n : Fin 4096) (o : Fin 256) (i : Fin 256) :
    val_main_v4 (F := Ideal) x0 x1 (ix3 n o i) = x0 (ix2 n i) + x1 (ix2 o i) := by
  rw [val_main_v4_apply, val_main_v2_apply, val_main_v3_apply, val_main_v0_apply, val_main_v1_apply]
  have e0 : idx_main_v0 (idx_main_v2 (ix3 n o i)) = ix2 n i :=
    funext fun a => Fin.ext (by match a with | ⟨0, _⟩ => rfl | ⟨1, _⟩ => rfl)
  have e1 : idx_main_v1 (idx_main_v3 (ix3 n o i)) = ix2 o i :=
    funext fun a => Fin.ext (by match a with | ⟨0, _⟩ => rfl | ⟨1, _⟩ => rfl)
  rw [e0, e1]
  rfl

/-- The bias spread over the rows, at `(n, o)`: the bias at `o`. -/
theorem bias_apply (x2 : (⟨S256, .f32⟩ : BufTy).Contents (Elt Ideal)) (n : Fin 4096) (o : Fin 256) :
    val_main_v7 (F := Ideal) x2 (ix2 n o) = x2 (ix1 o) := by
  rw [val_main_v7_apply, val_main_v6_apply]
  exact congrArg x2 (funext fun a => Fin.ext (by match a with | ⟨0, _⟩ => rfl))

/-- The reference's maximum over the last axis, at `(n, o)`: the maximum from `⊥` of `x n i + a o i` over `i`. -/
theorem rowMax_apply (x0 : (⟨S4096x256, .f32⟩ : BufTy).Contents (Elt Ideal)) (x1 : (⟨S256x256, .f32⟩ : BufTy).Contents (Elt Ideal))
    (n : Fin 4096) (o : Fin 256) :
    val_main_v5 (F := Ideal) x0 x1 (ix2 n o)
      = (Finset.univ : Finset (Fin 256)).fold max (⊥ : EReal) (fun i => x0 (ix2 n i) + x1 (ix2 o i)) := by
  unfold val_main_v5
  refine (Host.reduce_eq_fold_single (FloatOps.maximumf (F := Ideal) (φ := .f32)) _ _ reducesTo_S4096x256x256_S4096x256_d2 reducesLast h_S_ (ix2 n o)).trans ?_
  have hf : (val_main_v4 (F := Ideal) x0 x1 ∘ reducesLast.lift (ix2 n o)) = fun i : Fin 256 => x0 (ix2 n i) + x1 (ix2 o i) :=
    funext fun i => (congrArg (val_main_v4 (F := Ideal) x0 x1) (lift_no n o i)).trans (summand_apply x0 x1 n o _)
  rw [hf]
  exact congrArg (fun b => (Finset.univ : Finset (Fin 256)).fold max b _) negInf

/-- THE REFERENCE IS THE SPECIFICATION: its result stage, as a function of the three argument arrays. -/
theorem result_eq (x0 : (⟨S4096x256, .f32⟩ : BufTy).Contents (Elt Ideal)) (x1 : (⟨S256x256, .f32⟩ : BufTy).Contents (Elt Ideal))
    (x2 : (⟨S256, .f32⟩ : BufTy).Contents (Elt Ideal)) :
    val_main_v8 (F := Ideal) x0 x1 x2 = Cert.Spec.maxPlus x0 x1 x2 := by
  funext j
  obtain ⟨n, o, rfl⟩ : ∃ (n : Fin 4096) (o : Fin 256), j = ix2 n o := ⟨j 0, j 1, eq_ix2 j⟩
  rw [val_main_v8_apply, Cert.Spec.maxPlus_apply]
  exact congrArg₂ (· + ·) (rowMax_apply x0 x1 n o) (bias_apply x2 n o)

end Cert.ReferenceIdeal.RefValue

end
-- ==== Proof.lean ====
/-
  A max-plus ("tropical") matrix product with a bias, `y n o = (max over i of x n i + a o i) + bias o`
  over x : f32[4096, 256], a : f32[256, 256], bias : f32[256], in two programs.

  The reference spreads `x` and `a` over a [4096, 256, 256] box, adds them there, and takes the maximum
  over the last axis from −∞. The kernel transposes `a` on the host, and for each block of 512 rows
  walks the 256 columns eight at a time: a chunk's 512 × 8 × 256 box of sums, its maximum over the
  eight from −∞, joined onto a running maximum that starts as a splat of −∞; the bias row is added at
  the end. At the ideal values `maximumf` is `max` on the extended reals and −∞ is `⊥`, its identity;
  a maximum over 256 entries may be taken in 32 groups of eight because `max` is associative,
  commutative and idempotent. No entry needs to be finite: the precondition is never opened.

  The modules: `MaxPlus` (the running maximum, eight columns at a time, in any linear order with a
  least element), `Spec` (the one function both programs compute), `Chunk` (one step of the kernel's
  running maximum at an index), `Body` (the body's 32 steps: what a block holds), `KernelValue` (the
  eight blocks tile the array: the kernel's run ends at `Spec.maxPlus`), `RefValue` (the reference's
  result stage is `Spec.maxPlus`). The three frames are the generated ones; the idealized kernel is the
  kernel's own text read at the ideal values, so `preserves` is `True`.
-/
import proofs.«178071_j13099650252927_2_alg».proof.Defs
import proofs.«178071_j13099650252927_2_alg».proof.Proof.Gen.Kernel
import proofs.«178071_j13099650252927_2_alg».proof.Proof.Gen.Kernel.Skeleton
import proofs.«178071_j13099650252927_2_alg».proof.Proof.Gen.Kernel.Launch
import proofs.«178071_j13099650252927_2_alg».proof.Proof.Gen.Kernel.Points
import proofs.«178071_j13099650252927_2_alg».proof.Proof.Gen.Kernel.Frame
import proofs.«178071_j13099650252927_2_alg».proof.Proof.Gen.KernelIdeal
import proofs.«178071_j13099650252927_2_alg».proof.Proof.Gen.KernelIdeal.Skeleton
import proofs.«178071_j13099650252927_2_alg».proof.Proof.Gen.KernelIdeal.Launch
import proofs.«178071_j13099650252927_2_alg».proof.Proof.Gen.KernelIdeal.Points
import proofs.«178071_j13099650252927_2_alg».proof.Proof.Gen.KernelIdeal.Frame
import proofs.«178071_j13099650252927_2_alg».proof.Proof.Gen.ReferenceIdeal
import proofs.«178071_j13099650252927_2_alg».proof.Proof.Gen.Pre_finite_inputs
import proofs.«178071_j13099650252927_2_alg».proof.Proof.Gen.KernelIdeal.Value
import proofs.«178071_j13099650252927_2_alg».proof.Proof.Gen.ReferenceIdeal.Run
import proofs.«178071_j13099650252927_2_alg».proof.Proof.Gen.ReferenceIdeal.Read
import proofs.«178071_j13099650252927_2_alg».proof.Proof.KernelValue
import proofs.«178071_j13099650252927_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: there is no rewrite to justify. -/
theorem preserves : Cert.preserves_Kernel_KernelIdeal := trivial

/-- From memories that agree on `x`, `a` and `bias`, both programs end with the result array at
    `Spec.maxPlus x a bias`: the kernel block by block (`Tropical.run`), the reference by its result stage
    (`RefValue.result_eq`). -/
theorem algebraic : Cert.algebraic_KernelIdeal_ReferenceIdeal := by
  intro m ρ m' ρ' _ hagree
  refine ⟨fun c => Cert.Spec.maxPlus (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tropical.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
